-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x16384x8 : Shape := ⟨3, ![256, 16384, 8]⟩
abbrev S256x16384 : Shape := ⟨2, ![256, 16384]⟩
abbrev S_ : Shape := ⟨0, ![]⟩

class Facts : Prop where
  bcast_S_S256x16384x8 : S_.BroadcastsInDim S256x16384x8 (![] : Fin 0 → Fin S256x16384x8.rank)
  reducesTo_S256x16384x8_S_d0_1_2 : S256x16384x8.ReducesTo [0, 1, 2] S_
  h_S_ : 0 < S_.numel

variable [Facts]

def fn {F : FTy → Type} [FloatOps F] (main_arg0 : FVec F S256x16384x8 .f32) (main_arg1 : IVec S256x16384 1) : IVec S_ 1 :=
  let main_v0 : FVec F S256x16384x8 .f32 := Host.absf main_arg0
  let main_cst : FVec F S_ .f32 := constant S_ .f32 0x7F800000#32
  let main_v1 : FVec F S256x16384x8 .f32 := broadcastInDim S256x16384x8 ![] bcast_S_S256x16384x8 main_cst
  let main_v2 : IVec S256x16384x8 1 := cmpf .olt main_v0 main_v1
  let main_c : IVec S_ 1 := constantI S_ 1 1#1
  let main_v3 : IVec S_ 1 := (fun x v => Host.reduce IntOp.andi x v reducesTo_S256x16384x8_S_d0_1_2 h_S_) main_v2 main_c
  main_v3
-- ==== Kernel.lean ====
abbrev S256x16384x8 : Shape := ⟨3, ![256, 16384, 8]⟩
abbrev S256x16384 : Shape := ⟨2, ![256, 16384]⟩
abbrev S256x16384x1 : Shape := ⟨3, ![256, 16384, 1]⟩
abbrev S2x1x1 : Shape := ⟨3, ![2, 1, 1]⟩
abbrev S128x2048 : Shape := ⟨2, ![128, 2048]⟩
abbrev S1x1x1 : Shape := ⟨3, ![1, 1, 1]⟩
abbrev S128 : Shape := ⟨1, ![128]⟩
abbrev S128x1 : Shape := ⟨2, ![128, 1]⟩
abbrev S1 : Shape := ⟨1, ![1]⟩
abbrev S1x1 : Shape := ⟨2, ![1, 1]⟩
abbrev S_ : Shape := ⟨0, ![]⟩

abbrev nBuf : Space → Nat
  | .hbm => 11
  | .vmem => 7
  | .smem => 0
  | _ => 0

abbrev bufTy : (tb : Table) → Fin (tcTables nBuf tb) → BufTy
  | .hbm, ⟨0, _⟩ => ⟨S256x16384x8, .f32⟩
  | .hbm, ⟨1, _⟩ => ⟨S256x16384, .i1⟩
  | .hbm, ⟨2, _⟩ => ⟨S256x16384x1, .f32⟩
  | .hbm, ⟨3, _⟩ => ⟨S256x16384, .f32⟩
  | .hbm, ⟨4, _⟩ => ⟨S256x16384, .f32⟩
  | .hbm, ⟨5, _⟩ => ⟨S2x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | _, _ => ⟨S256x16384x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v24 : BitVec 1 := Scalar.cmpi .eq arg1 c7_i32
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S256x16384x8_S256x16384x1_0_0_0 : S256x16384x8.Slices ![0, 0, 0] S256x16384x1
  shapeCasts_S256x16384x1_S256x16384 : S256x16384x1.ShapeCasts S256x16384
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  reduces_S128x2048_S128 : S128x2048.Reduces [1] S128
  shapeCasts_S128_S128x1 : S128.ShapeCasts S128x1
  reduces_S128x1_S1 : S128x1.Reduces [0] S1
  shapeCasts_S1_S1x1 : S1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S256x16384.size a
  hwx0_0 : ∀ i : grid0.Coords, EltTy.bits .f32 = 32 ∨ (Rect.block (s := S256x16384) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S256x16384.size a
  hwx0_1 : ∀ i : grid0.Coords, EltTy.bits .f32 = 32 ∨ (Rect.block (s := S256x16384) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v1) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x16384x8 : Shape := ⟨3, ![256, 16384, 8]⟩
abbrev S256x16384 : Shape := ⟨2, ![256, 16384]⟩
abbrev S256x16384x1 : Shape := ⟨3, ![256, 16384, 1]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S256x16384x8, .f32⟩
  | .hbm, ⟨1, _⟩ => ⟨S256x16384, .i1⟩
  | .hbm, ⟨2, _⟩ => ⟨S256x16384x1, .f32⟩
  | .hbm, ⟨3, _⟩ => ⟨S256x16384, .f32⟩
  | .hbm, ⟨4, _⟩ => ⟨S256x16384, .f32⟩
  | .hbm, ⟨5, _⟩ => ⟨S256x16384, .f32⟩
  | .hbm, ⟨6, _⟩ => ⟨S256x16384, .f32⟩
  | .hbm, ⟨7, _⟩ => ⟨S256x16384, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S256x16384x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  slices_S256x16384x8_S256x16384x1_0_0_0 : S256x16384x8.Slices ![0, 0, 0] S256x16384x1
  shapeCasts_S256x16384x1_S256x16384 : S256x16384x1.ShapeCasts S256x16384
  reducesTo_S256x16384_S_d0_1 : S256x16384.ReducesTo [0, 1] S_
  h_S_ : 0 < S_.numel

variable [Facts₀]

class Facts : Prop extends Facts₀ where

variable [Facts]
-- ==== Proof.Pieces.lean ====
/-
  What one run of the kernel body leaves behind, as values.

  The body keeps a one-entry accumulator.  At the first column stretch of a row partition it first stores zero there;
  at every point it then reads the accumulator back, adds the sum of the point's tile and stores the result; at the
  last stretch of a partition it also copies the accumulator into the output block.  Every load and store goes through
  the whole buffer, so what a buffer holds after the body is the value last stored:

    first stretch  : accumulator = update (zero)          (the zero just stored is what the read-back sees)
    later stretch  : accumulator = update (what it held)
    last stretch   : the same, and output block = the accumulator's new contents

  where  update a  is the stored value as a function of the two input blocks and the accumulator read back.
  Stated for any reading of the floats.
-/
import proofs.«128644_j13099650253073_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- First stretch of a partition: the accumulator ends at the update of zero. -/
theorem scratch_first (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S1x1x1 .f32) (harg4 : arg4.IsWhole) (arg5 : Memref sig .tc .vmem S1x1x1 .f32) (harg5 : arg5.IsWhole) (hc0 : cond0_0 i) (hc1 : ¬cond0_1 i)
    (x0 : Vec F S128x2048 .f32) (x1 : Vec F S128x2048 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, View.ld_unit_zero (S := S128x2048) hz2]

/-- A middle stretch: the accumulator ends at the update of what it held. -/
theorem scratch_middle (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S1x1x1 .f32) (harg4 : arg4.IsWhole) (arg5 : Memref sig .tc .vmem S1x1x1 .f32) (harg5 : arg5.IsWhole) (hc0 : ¬cond0_0 i) (hc1 : ¬cond0_1 i)
    (x0 : Vec F S128x2048 .f32) (x1 : Vec F S128x2048 .f32) (xs0 : Vec F S1x1x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz3]
  simp only [View.readAt_eq_ld, harg2.read_unread, harg3.read_unread, harg5.read_unread,
    View.ld_unit_zero (S := S128x2048) hz2, View.ld_unit_zero (S := S1x1x1) hz3]

/-- The last stretch: the accumulator ends at the update of what it held, -/
theorem scratch_last (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S1x1x1 .f32) (harg4 : arg4.IsWhole) (arg5 : Memref sig .tc .vmem S1x1x1 .f32) (harg5 : arg5.IsWhole) (hc0 : ¬cond0_0 i) (hc1 : cond0_1 i)
    (x0 : Vec F S128x2048 .f32) (x1 : Vec F S128x2048 .f32) (xs0 : Vec F S1x1x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz3]
  simp only [View.readAt_eq_ld, harg2.read_unread, harg3.read_unread, harg5.read_unread,
    View.ld_unit_zero (S := S128x2048) hz2, View.ld_unit_zero (S := S1x1x1) hz3]

/-- and the output block receives the same value. -/
theorem out_last (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S1x1x1 .f32) (harg4 : arg4.IsWhole) (arg5 : Memref sig .tc .vmem S1x1x1 .f32) (harg5 : arg5.IsWhole) (hc0 : ¬cond0_0 i) (hc1 : cond0_1 i)
    (x0 : Vec F S128x2048 .f32) (x1 : Vec F S128x2048 .f32) (xs0 : Vec F S1x1x1 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1x1x1) _ hz3]
  simp only [View.readAt_eq_ld, harg2.read_unread, harg3.read_unread, harg5.read_unread,
    View.ld_unit_zero (S := S128x2048) hz2, View.ld_unit_zero (S := S1x1x1) hz3]

end Cert.KernelIdeal.Pieces

end
-- ==== Proof.LibBlockSum.lean ====
/- Block sums: a sum over Fin (n * b) is the sum over the n blocks of the b entries of each block,
   the entry j of block k sitting at position k * b + j. Over any commutative additive monoid. -/
import Mathlib.Algebra.BigOperators.Fin
import Mathlib.Data.Fintype.BigOperators
import Mathlib.Logic.Equiv.Fin.Basic

namespace BlockSum

variable {M : Type*} [AddCommMonoid M]

/-- Position k * b + j, with k < n and j < b, lies below n * b. -/
theorem block_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right _ k.isLt

/-- A sum over Fin (n * b) is the sum over the n blocks of the sums over the b entries of each block:
    ∑ k < n, ∑ j < b, f (k * b + j) = ∑ i < n * b, f i. -/
theorem sum_blocks (n b : ℕ) (f : Fin (n * b) → M) :
    (∑ k : Fin n, ∑ j : Fin b, f ⟨k.val * b + j.val, block_lt k j⟩) = ∑ i : Fin (n * b), f i := by
  rw [← Equiv.sum_comp finProdFinEquiv f, Fintype.sum_prod_type]
  refine Finset.sum_congr rfl fun k _ => Finset.sum_congr rfl fun j _ => ?_
  exact congrArg f (Fin.ext (by simp [finProdFinEquiv, Nat.mul_comm, Nat.add_comm]))

/-- 8 blocks of 1024 over Fin 8192. -/
theorem sum_blocks_8_1024 (f : Fin 8192 → M) :
    (∑ k : Fin 8, ∑ j : Fin 1024, f ⟨k.val * 1024 + j.val, by omega⟩) = ∑ i : Fin 8192, f i :=
  sum_blocks 8 1024 f

/-- 8 blocks of 2048 over Fin 16384. -/
theorem sum_blocks_8_2048 (f : Fin 16384 → M) :
    (∑ k : Fin 8, ∑ j : Fin 2048, f ⟨k.val * 2048 + j.val, by omega⟩) = ∑ i : Fin 16384, f i :=
  sum_blocks 8 2048 f

/-- 4 blocks of 2048 over Fin 8192. -/
theorem sum_blocks_4_2048 (f : Fin 8192 → M) :
    (∑ k : Fin 4, ∑ j : Fin 2048, f ⟨k.val * 2048 + j.val, by omega⟩) = ∑ i : Fin 8192, f i :=
  sum_blocks 4 2048 f

end BlockSum
-- ==== Proof.Spec.lean ====
/-
  The mathematics both programs share, over the extended reals.

  Every entry (b, g) of the 256 x 16384 problem contributes  log p  where its target bit is set and  log (1 - p),
  written log1p (-p), where it is not; the result is minus the sum of all contributions, divided by 256.

  One program adds the contributions tile by tile: the rows are cut into 2 partitions of 128, the columns into
  8 stretches of 2048, and an accumulator is reset at the first stretch of a partition and then collects that
  partition's 8 tile sums.  Addition of extended reals is commutative and associative, so the sum over the 2 x 8
  tiles of the sums over a 128 x 2048 tile is the sum over all 256 x 16384 entries (sum_tiles), whatever the values.
-/
import Idealize.ShloMosaic.PureOps.Ideal.Laws
import Idealize.ShloMosaic.Lib.ValueIdx
import proofs.«128644_j13099650253073_2_alg».proof.Proof.LibBlockSum

noncomputable section

namespace Cert.Nll

open Idealize.ShloMosaic

/-- The single-precision word 0x3F000000 denotes one half. -/
theorem ofBits_half : Ideal.ofBits .f32 0x3F000000#32 = ((1 / 2 : ℝ) : EReal) := by
  simp [Ideal.ofBits, Ideal.ieee, -EReal.coe_mul]; norm_num

/-- The contribution of one entry with target bit t and probability p. -/
def term (t : BitVec 1) (p : EReal) : EReal := Scalar.select t (Ideal.log p) (Ideal.log1p (-p))

/-- A bit read as the number 0 or 1 exceeds one half exactly when it is set. -/
theorem gt_half_of_bit (t : BitVec 1) :
    Ideal.cmp .ogt (((t.toNat : ℝ) : EReal)) (Ideal.ofBits .f32 0x3F000000#32) = t := by
  rw [ofBits_half]
  rcases BitVec.eq_zero_or_eq_one t with h | h <;> subst h
  · have h0 : ¬ (((1 / 2 : ℝ) : EReal) < ((((0#1 : BitVec 1).toNat : ℕ) : ℝ) : EReal)) := by
      rw [EReal.coe_lt_coe_iff]; norm_num
    show BitVec.ofBool (decide _) = _
    rw [decide_eq_false h0]; rfl
  · have h1 : ((1 / 2 : ℝ) : EReal) < ((((1#1 : BitVec 1).toNat : ℕ) : ℝ) : EReal) := by
      rw [EReal.coe_lt_coe_iff]; norm_num
    show BitVec.ofBool (decide _) = _
    rw [decide_eq_true h1]; rfl

/-- Zero minus p is minus p, at the infinities too. -/
theorem zero_sub_ereal (p : EReal) : (0 : EReal) - p = -p := zero_sub p

/-- The contribution as the tiled program spells it: from the target bit already converted to a number mk (tested
    against one half) and with log1p taken of 0 - p. -/
def kterm (mk p : EReal) : EReal :=
  Scalar.select (Ideal.cmp .ogt mk (Ideal.ofBits .f32 0x3F000000#32)) (Ideal.log p)
    (Ideal.log1p (Ideal.ofBits .f32 0x00000000#32 - p))

/-- On a target bit converted to 0 or 1 it is the contribution itself. -/
theorem kterm_bit (t : BitVec 1) (p : EReal) : kterm (((t.toNat : ℝ) : EReal)) p = term t p := by
  unfold kterm term
  rw [gt_half_of_bit, Ideal.ofBits_zero_f32, zero_sub_ereal]

/-! ## The sum over the tiles is the sum over the entries -/

/-- The sum over 2 row partitions, 8 column stretches, and the 128 x 2048 entries of a tile, of the entry at row
    128 p + r and column 2048 g + q, is the sum over all rows and columns. -/
theorem sum_tiles {M : Type*} [AddCommMonoid M] (f : Fin 256 → Fin 16384 → M) :
    (∑ p : Fin 2, ∑ g : Fin 8, ∑ r : Fin 128, ∑ q : Fin 2048,
        f ⟨p.val * 128 + r.val, by omega⟩ ⟨g.val * 2048 + q.val, by omega⟩)
      = ∑ b : Fin 256, ∑ c : Fin 16384, f b c := by
  have hcols : ∀ b : Fin 256, (∑ c : Fin 16384, f b c)
      = ∑ g : Fin 8, ∑ q : Fin 2048, f b ⟨g.val * 2048 + q.val, by omega⟩ :=
    fun b => (BlockSum.sum_blocks_8_2048 (f b)).symm
  rw [← BlockSum.sum_blocks 2 128 (fun b : Fin 256 => ∑ c : Fin 16384, f b c)]
  refine Finset.sum_congr rfl fun p _ => ?_
  rw [Finset.sum_comm]
  refine Finset.sum_congr rfl fun r _ => ?_
  exact (hcols _).symm

/-! ## The accumulator -/

/-- With T n the tile sum added at grid point n (point n = 8 p + g handles stretch g of partition p), the accumulator
    after point n holds the tile sums of n's partition from its first stretch up to n. -/
def acc (T : ℕ → EReal) (n : ℕ) : EReal := ∑ k ∈ Finset.range (n % 8 + 1), T (n - n % 8 + k)

/-- At the first stretch of a partition the accumulator, reset, holds that tile's sum. -/
theorem acc_first (T : ℕ → EReal) (n : ℕ) (h : n % 8 = 0) : acc T n = T n := by
  unfold acc
  rw [h]
  simp

/-- At a later stretch it holds what it held before plus this tile's sum. -/
theorem acc_step (T : ℕ → EReal) (n : ℕ) (h : ¬ n % 8 = 0) : acc T n = acc T (n - 1) + T n := by
  unfold acc
  have h1 : (n - 1) % 8 + 1 = n % 8 := by omega
  have h2 : n - 1 - (n - 1) % 8 = n - n % 8 := by omega
  rw [h2, h1, Finset.sum_range_succ (fun k => T (n - n % 8 + k)) (n % 8)]
  congr 2
  omega

/-- After the last stretch of partition p it holds the sum of the partition's 8 tile sums. -/
theorem acc_last (T : ℕ → EReal) (p : ℕ) : acc T (8 * p + 7) = ∑ g : Fin 8, T (8 * p + g.val) := by
  unfold acc
  have h1 : (8 * p + 7) % 8 = 7 := by omega
  rw [h1, show 8 * p + 7 - 7 = 8 * p from by omega]
  exact Finset.sum_range (fun k => T (8 * p + k))

end Cert.Nll

end
-- ==== Proof.LibLayout.lean ====
/-
  Shape casts that add or drop a UNIT axis somewhere other than the front, and broadcasts of a unit axis, read at an
  index given by coordinates: the forms a reduction with kept dimensions meets ([a] ↔ [a,1], [a,b] ↔ [a,1,b],
  [a,b] → [a,b,1], [a,b,c] → [a,b,c,1], [a,b] → [a,1,1,b]; [a,1] → [a,b], [a,b,1] → [a,b,c], [a,b,c,1] → [a,b,c,d],
  [a,1,1,d] → [a,b,c,d]). A shape cast keeps the row-major position, and a unit axis contributes nothing to it; a
  broadcast reads coordinate 0 on the operand's unit axes and the result's coordinate elsewhere.
-/
import Idealize.ShloMosaic.Lib.Pipeline.Value
import Idealize.ShloMosaic.Lib.ValueIdx

namespace Cert.LibLayout

open Idealize.ShloMosaic Idealize.ShloMosaic.ValueIdx

variable {α : Type}

/-! ## Shape casts -/

/-- `[a] → [a,1]`: at (p, u) the operand at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- `[a,b] → [a,1,b]`: at (p, u, q) the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_two, Shape.rowMajor_val_three]
    show p.val * b + q.val = (p.val * 1 + u.val) * b + q.val
    rw [hu, Nat.mul_one, Nat.add_zero])

/-- `[a,1,b] → [a,b]`: at (p, q) the operand at (p, 0, q). -/
theorem shapeCast_a1b_ab_apply {a b : ℕ} (x : (⟨3, ![a, 1, b]⟩ : Shape).Idx → α)
    (h : (⟨3, ![a, 1, b]⟩ : Shape).ShapeCasts ⟨2, ![a, b]⟩) (p : Fin a) (q : Fin b) :
    shapeCast ⟨2, ![a, b]⟩ x h (ix2 p q) = x (ix3 p (0 : Fin 1) q) :=
  shapeCast_apply x h _ _ (by
    rw [Shape.rowMajor_val_three, Shape.rowMajor_val_two]
    show (p.val * 1 + 0) * b + q.val = p.val * b + q.val
    rw [Nat.mul_one, Nat.add_zero])

/-- `[a,b] → [a,b,1]`: at (p, q, u) the operand at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- `[a,b,c] → [a,b,c,1]`: at (p, q, r, u) the operand at (p, q, r). -/
theorem shapeCast_abc_abc1_apply {a b c : ℕ} (x : (⟨3, ![a, b, c]⟩ : Shape).Idx → α)
    (h : (⟨3, ![a, b, c]⟩ : Shape).ShapeCasts ⟨4, ![a, b, c, 1]⟩) (p : Fin a) (q : Fin b) (r : Fin c) (u : Fin 1) :
    shapeCast ⟨4, ![a, b, c, 1]⟩ x h (ix4 p q r u) = x (ix3 p q r) :=
  shapeCast_apply x h _ _ (by
    have hu : u.val = 0 := by omega
    rw [Shape.rowMajor_val_three, Shape.rowMajor_val_four]
    show (p.val * b + q.val) * c + r.val = ((p.val * b + q.val) * c + r.val) * 1 + u.val
    rw [hu, Nat.mul_one, Nat.add_zero])

/-- `[a,b] → [a,1,1,b]`: at (p, u, v, q) the operand at (p, q). -/
theorem shapeCast_ab_a11b_apply {a b : ℕ} (x : (⟨2, ![a, b]⟩ : Shape).Idx → α)
    (h : (⟨2, ![a, b]⟩ : Shape).ShapeCasts ⟨4, ![a, 1, 1, b]⟩) (p : Fin a) (u v : Fin 1) (q : Fin b) :
    shapeCast ⟨4, ![a, 1, 1, b]⟩ x h (ix4 p u v q) = x (ix2 p q) :=
  shapeCast_apply x h _ _ (by
    have hu : u.val = 0 := by omega
    have hv : v.val = 0 := by omega
    rw [Shape.rowMajor_val_two, Shape.rowMajor_val_four]
    show p.val * b + q.val = ((p.val * 1 + u.val) * 1 + v.val) * b + q.val
    simp only [hu, hv, Nat.mul_one, Nat.add_zero])

/-! ## Broadcasts of unit axes -/

/-- `[a,1] → [a,b]`: at (p, q) the operand's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- `[a,b,1] → [a,b,c]`: at (p, q, r) the operand's entry of (p, q). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[a,b,c,1] → [a,b,c,d]`: at (p, q, r, s) the operand's entry of (p, q, r). -/
theorem broadcastTo_abc1_abcd_apply {a b c d : ℕ} (v : (⟨4, ![a, b, c, 1]⟩ : Shape).Idx → α)
    (h : (⟨4, ![a, b, c, 1]⟩ : Shape).Broadcasts ⟨4, ![a, b, c, d]⟩) (p : Fin a) (q : Fin b) (r : Fin c) (s : Fin d) :
    broadcastTo ⟨4, ![a, b, c, d]⟩ v h (ix4 p q r s) = v (ix4 p q r (0 : Fin 1)) := by
  refine broadcastTo_apply v h (ix4 p q r s) (ix4 p q r (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show r.val = if c = 1 then 0 else r.val
    split
    · have := r.isLt; omega
    · rfl
  | ⟨3, _⟩ => rfl

/-- `[a,1,1,d] → [a,b,c,d]`: at (p, q, r, s) the operand's entry of (p, s). -/
theorem broadcastTo_a11d_abcd_apply {a b c d : ℕ} (v : (⟨4, ![a, 1, 1, d]⟩ : Shape).Idx → α)
    (h : (⟨4, ![a, 1, 1, d]⟩ : Shape).Broadcasts ⟨4, ![a, b, c, d]⟩) (p : Fin a) (q : Fin b) (r : Fin c) (s : Fin d) :
    broadcastTo ⟨4, ![a, b, c, d]⟩ v h (ix4 p q r s) = v (ix4 p (0 : Fin 1) (0 : Fin 1) s) := by
  refine broadcastTo_apply v h (ix4 p q r s) (ix4 p (0 : Fin 1) (0 : Fin 1) s) fun ax => ?_
  match ax with
  | ⟨0, _⟩ =>
    show p.val = if a = 1 then 0 else p.val
    split
    · have := p.isLt; omega
    · rfl
  | ⟨1, _⟩ => rfl
  | ⟨2, _⟩ => rfl
  | ⟨3, _⟩ =>
    show s.val = if d = 1 then 0 else s.val
    split
    · have := s.isLt; omega
    · rfl

end Cert.LibLayout
-- ==== Proof.LibRowReduce.lean ====
/-
  Reductions along the rows of an [n, e] array, read at a row: over the extended reals the vector unit's maximum over
  axis 1 and the host's one-operand reduce with a maximum body are, at row `p`, the fold of `max` from the initial
  value over the columns `k : Fin e` of the entry (p, k); the vector unit's sum over axis 1 is the sum over the
  columns. The reduced index `p` with the column `k` inserted on axis 1 is the index (p, k). Generic in `n` and `e`.
-/
import Idealize.ShloMosaic.PureOps.Ideal.Laws
import Idealize.ShloMosaic.PureOps.Reduce
import Idealize.ShloMosaic.Lib.ValueIdx

noncomputable section

namespace LibRowReduce

open Idealize.ShloMosaic Idealize.ShloMosaic.ValueIdx

variable {n e : ℕ}

/-- Row `p` with column `k` inserted on axis 1 is the index (p, k). -/
theorem lift_row (h : Shape.Reduces ⟨2, ![n, e]⟩ [1] ⟨1, ![n]⟩) (p : Fin n) (k : Fin e) :
    h.lift (ix1 p) k = ix2 p k := by
  funext a
  apply Fin.ext
  match a with
  | ⟨0, _⟩ => rfl
  | ⟨1, _⟩ => rfl

/-- The vector unit's maximum along the rows, at row `p`: the fold of `max` from the accumulator's value over the columns. -/
theorem multiReduction_max_row {φ : FTy} (x : FVec Ideal ⟨2, ![n, e]⟩ φ) (acc : BitVec φ.bits)
    (h : Shape.Reduces ⟨2, ![n, e]⟩ [1] ⟨1, ![n]⟩) (hφ : FKind.Formats φ) (hacc : acc = FKind.maximumf.neutral φ hφ) (p : Fin n) :
    multiReduction .maximumf [1] ⟨1, ![n]⟩ x acc h hφ hacc (ix1 p)
      = (Finset.univ : Finset (Fin e)).fold max (Ideal.ofBits φ acc) fun k => x (ix2 p k) := by
  refine (Ideal.multiReduction_maximumf_single x acc h hφ hacc (ix1 p)).trans ?_
  refine congrArg (Finset.fold max _ · Finset.univ) (funext fun k => ?_)
  exact congrArg x (lift_row h p k)

/-- The vector unit's sum along the rows, at row `p`: the sum over the columns. -/
theorem multiReduction_add_row {φ : FTy} (x : FVec Ideal ⟨2, ![n, e]⟩ φ) (acc : BitVec φ.bits)
    (h : Shape.Reduces ⟨2, ![n, e]⟩ [1] ⟨1, ![n]⟩) (hφ : FKind.Formats φ) (hacc : acc = FKind.add.neutral φ hφ) (p : Fin n) :
    multiReduction .add [1] ⟨1, ![n]⟩ x acc h hφ hacc (ix1 p) = ∑ k : Fin e, x (ix2 p k) := by
  refine (Ideal.multiReduction_add_single x acc h hφ hacc (ix1 p)).trans ?_
  exact Finset.sum_congr rfl fun k _ => congrArg x (lift_row h p k)

/-- The host's reduce with a maximum body along the rows, at row `p`: the fold of `max` from the initial value over the columns. -/
theorem hostReduce_max_row {φ : FTy} {u : Shape} (x : FVec Ideal ⟨2, ![n, e]⟩ φ) (init : u.Idx → EReal)
    (h' : Shape.ReducesTo ⟨2, ![n, e]⟩ [1] ⟨1, ![n]⟩) (h : Shape.Reduces ⟨2, ![n, e]⟩ [1] ⟨1, ![n]⟩) (hu : 0 < u.numel) (p : Fin n) :
    Host.reduce (FloatOps.maximumf (F := Ideal) (φ := φ)) x init h' hu (ix1 p)
      = (Finset.univ : Finset (Fin e)).fold max (init (Shape.Idx.first hu)) fun k => x (ix2 p k) := by
  refine (Host.reduce_eq_fold_single (FloatOps.maximumf (F := Ideal) (φ := φ)) x init h' h hu (ix1 p)).trans ?_
  refine congrArg (Finset.fold max _ · Finset.univ) (funext fun k => ?_)
  exact congrArg x (lift_row h p k)

/-- The host's float sum along the rows, at row `p`: the initial value plus the sum over the columns. -/
theorem hostReduceAdd_row (x : (⟨2, ![n, e]⟩ : Shape).Idx → EReal) (init : EReal)
    (h' : Shape.ReducesTo ⟨2, ![n, e]⟩ [1] ⟨1, ![n]⟩) (h : Shape.Reduces ⟨2, ![n, e]⟩ [1] ⟨1, ![n]⟩) (p : Fin n) :
    Ideal.hostReduceAdd h' x init (ix1 p) = init + ∑ k : Fin e, x (ix2 p k) := by
  refine (Ideal.hostReduceAdd_single h' h x init (ix1 p)).trans ?_
  exact congrArg (init + ·) (Finset.sum_congr rfl fun k _ => congrArg x (lift_row h p k))

end LibRowReduce

end
-- ==== Proof.LibKeepdimsSum.lean ====
/-
  The sum of every entry of an [n, e] block as a vector unit computes it with kept dimensions: the sum along the
  rows ([n, e] -> [n], laid down as a column [n, 1]), then the sum down that column ([n, 1] -> [1], laid down as
  [1, 1]), then a leading unit axis ([1, 1, 1]).  Over the extended reals, read at the one entry of the result, it is
  the double sum over the rows r and the columns q of the entry (r, q).  Generic in n and e.
-/
import Idealize.ShloMosaic.PureOps.Ideal.Laws
import Idealize.ShloMosaic.PureOps.Reduce
import Idealize.ShloMosaic.Lib.ValueIdx
import proofs.«128644_j13099650253073_2_alg».proof.Proof.LibLayout
import proofs.«128644_j13099650253073_2_alg».proof.Proof.LibRowReduce

noncomputable section

namespace LibKeepdimsSum

open Idealize.ShloMosaic Idealize.ShloMosaic.ValueIdx

variable {n e : ℕ}

/-- Column u of a one-column array with row r inserted on axis 0 is the index (r, u). -/
theorem lift_col (h : Shape.Reduces ⟨2, ![n, 1]⟩ [0] ⟨1, ![1]⟩) (u : Fin 1) (r : Fin n) :
    h.lift (ix1 u) r = ix2 r u := by
  funext a
  apply Fin.ext
  match a with
  | ⟨0, _⟩ => rfl
  | ⟨1, _⟩ => rfl

/-- The vector unit's sum down the one column of an [n, 1] array: the sum over the rows. -/
theorem multiReduction_add_col {φ : FTy} (x : FVec Ideal ⟨2, ![n, 1]⟩ φ) (acc : BitVec φ.bits)
    (h : Shape.Reduces ⟨2, ![n, 1]⟩ [0] ⟨1, ![1]⟩) (hφ : FKind.Formats φ) (hacc : acc = FKind.add.neutral φ hφ) (u : Fin 1) :
    multiReduction .add [0] ⟨1, ![1]⟩ x acc h hφ hacc (ix1 u) = ∑ r : Fin n, x (ix2 r u) := by
  refine (Ideal.multiReduction_add_single x acc h hφ hacc (ix1 u)).trans ?_
  exact Finset.sum_congr rfl fun r _ => congrArg x (lift_col h u r)

/-- The whole chain at the one entry of the [1, 1, 1] result: the double sum over rows and columns. -/
theorem total_apply {φ : FTy} (x : FVec Ideal ⟨2, ![n, e]⟩ φ) (acc : BitVec φ.bits)
    (hrow : Shape.Reduces ⟨2, ![n, e]⟩ [1] ⟨1, ![n]⟩) (hcolumn : (⟨1, ![n]⟩ : Shape).ShapeCasts ⟨2, ![n, 1]⟩)
    (hcol : Shape.Reduces ⟨2, ![n, 1]⟩ [0] ⟨1, ![1]⟩) (h11 : (⟨1, ![1]⟩ : Shape).ShapeCasts ⟨2, ![1, 1]⟩)
    (h111 : (⟨2, ![1, 1]⟩ : Shape).ShapeCasts ⟨3, ![1, 1, 1]⟩)
    (hφ : FKind.Formats φ) (hacc : acc = FKind.add.neutral φ hφ) (a b d : Fin 1) :
    shapeCast ⟨3, ![1, 1, 1]⟩
        (shapeCast ⟨2, ![1, 1]⟩
          (multiReduction .add [0] ⟨1, ![1]⟩
            (shapeCast ⟨2, ![n, 1]⟩ (multiReduction .add [1] ⟨1, ![n]⟩ x acc hrow hφ hacc) hcolumn) acc hcol hφ hacc) h11) h111
        (ix3 a b d)
      = ∑ r : Fin n, ∑ q : Fin e, x (ix2 r q) := by
  refine (Cert.LibLayout.shapeCast_ab_ab1_apply _ h111 a b d).trans ?_
  refine (Cert.LibLayout.shapeCast_a_a1_apply _ h11 a b).trans ?_
  refine (multiReduction_add_col _ acc hcol hφ hacc a).trans ?_
  refine Finset.sum_congr rfl fun r _ => ?_
  refine (Cert.LibLayout.shapeCast_a_a1_apply _ hcolumn r a).trans ?_
  exact LibRowReduce.multiReduction_add_row x acc hrow hφ hacc r

end LibKeepdimsSum

end
-- ==== Proof.Payload.lean ====
/-
  The value the kernel body stores into its accumulator, over the extended reals.

  The reset value is zero at its one entry.  The update of an accumulator a by the blocks x0 (probabilities) and x1
  (the target bits as numbers) is, at its one entry,

      a + sum over the 128 rows r and the 2048 columns q of the tile of
            ( log x0(r,q)  if x1(r,q) > 1/2,  log1p (0 - x0(r,q))  otherwise ):

  the row sums, the sum of the row sums and the unit axes added on the way change nothing but the shape.
-/
import proofs.«128644_j13099650253073_2_alg».proof.Proof.Gen.KernelIdeal.Skeleton
import proofs.«128644_j13099650253073_2_alg».proof.Proof.Spec
import proofs.«128644_j13099650253073_2_alg».proof.Proof.LibKeepdimsSum
import Idealize.ShloMosaic.Lib.Pipeline.Value

noncomputable section

open Idealize.ShloMosaic Idealize.ShloMosaic.ValueIdx

namespace Cert.KernelIdeal.Payload

open Cert.KernelIdeal Cert.KernelIdeal.Gen

/-- The reset value: zero. -/
theorem reset_apply (j : S1x1x1.Idx) : k0_pay1 (F := Ideal) j = 0 := by
  unfold k0_pay1
  rw [shapeCast_self]
  exact Ideal.ofBits_zero_f32

/-- The update at the accumulator's one entry: what it held plus the sum of the tile's contributions. -/
theorem update_apply (x0 x1 : Vec Ideal S128x2048 .f32) (xs : Vec Ideal S1x1x1 .f32) (a b d : Fin 1) :
    k0_pay2 (F := Ideal) x0 x1 xs (ix3 a b d)
      = xs (ix3 a b d) + ∑ r : Fin 128, ∑ q : Fin 2048, Cert.Nll.kterm (x1 (ix2 r q)) (x0 (ix2 r q)) := by
  unfold k0_pay2
  simp only [shapeCast_self]
  show xs (ix3 a b d) + _ = _
  refine congrArg (xs (ix3 a b d) + ·) ?_
  refine (LibKeepdimsSum.total_apply (n := 128) (e := 2048) _ _ _ _ _ _ _ _ _ a b d).trans ?_
  exact Finset.sum_congr rfl fun r _ => Finset.sum_congr rfl fun q _ => rfl

end Cert.KernelIdeal.Payload

end
-- ==== Proof.Tiles.lean ====
/-
  The tile handled at a grid point, and the partitions' totals.

  Grid point n = 8 p + g handles rows 128 p .. 128 p + 127 and columns 2048 g .. 2048 g + 2047 of the two
  256 x 16384 arrays P (probabilities) and Mk (target bits as numbers).  After point 8 p + 7 the accumulator holds
  the total of partition p, and the two partitions' totals add up to the sum of the contributions of all entries.
-/
import proofs.«128644_j13099650253073_2_alg».proof.Proof.Spec

noncomputable section

namespace Cert.Nll

open Idealize.ShloMosaic Idealize.ShloMosaic.ValueIdx

/-- The sum of the contributions of the tile handled at grid point n (points past the grid contribute nothing). -/
def tileSum (P Mk : (⟨2, ![256, 16384]⟩ : Shape).Idx → EReal) (n : ℕ) : EReal :=
  if h : n < 16 then
    ∑ r : Fin 128, ∑ q : Fin 2048,
      kterm (Mk (ix2 (⟨n / 8 * 128 + r.val, by omega⟩ : Fin 256) (⟨n % 8 * 2048 + q.val, by omega⟩ : Fin 16384)))
        (P (ix2 (⟨n / 8 * 128 + r.val, by omega⟩ : Fin 256) (⟨n % 8 * 2048 + q.val, by omega⟩ : Fin 16384)))
  else 0

/-- The two partitions' totals add up to the sum over every entry. -/
theorem sum_partitions (P Mk : (⟨2, ![256, 16384]⟩ : Shape).Idx → EReal) :
    ∑ p : Fin 2, acc (tileSum P Mk) (8 * p.val + 7)
      = ∑ j : (⟨2, ![256, 16384]⟩ : Shape).Idx, kterm (Mk j) (P j) := by
  rw [sum_idx2, ← sum_tiles (fun b c => kterm (Mk (ix2 b c)) (P (ix2 b c)))]
  refine Finset.sum_congr rfl fun p _ => ?_
  rw [acc_last]
  refine Finset.sum_congr rfl fun g _ => ?_
  have hn : 8 * p.val + g.val < 16 := by omega
  unfold tileSum
  rw [dif_pos hn]
  refine Finset.sum_congr rfl fun r _ => Finset.sum_congr rfl fun q _ => ?_
  have hb : (⟨(8 * p.val + g.val) / 8 * 128 + r.val, by omega⟩ : Fin 256) = ⟨p.val * 128 + r.val, by omega⟩ :=
    Fin.ext (by show (8 * p.val + g.val) / 8 * 128 + r.val = p.val * 128 + r.val; omega)
  have hc : (⟨(8 * p.val + g.val) % 8 * 2048 + q.val, by omega⟩ : Fin 16384) = ⟨g.val * 2048 + q.val, by omega⟩ :=
    Fin.ext (by show (8 * p.val + g.val) % 8 * 2048 + q.val = g.val * 2048 + q.val; omega)
  rw [hb, hc]

end Cert.Nll

end
-- ==== Proof.Blocks.lean ====
/-
  The two input arrays as the kernel's region finds them, and a window block read at an entry.

  Before the region the host lays down the probabilities (channel 0 of every entry, the unit axis dropped) and the
  target bits converted to numbers.  Grid point t stages the 128 x 2048 block of each array whose rows start at
  128 (t / 8) and whose columns start at 2048 (t mod 8): entry (r, q) of the block is entry
  (128 (t / 8) + r, 2048 (t mod 8) + q) of the array.  The output's block at point t is entry t / 8 of the result.
-/
import proofs.«128644_j13099650253073_2_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The probabilities as the region finds them: channel 0 of the first argument, its unit axis dropped. -/
theorem V_probs (c : Dev nD) :
    V m c main_v1 = shapeCast S256x16384
      (extractStridedSlice S256x16384x1 ![0, 0, 0] (m ((c : Thread nD τ).loc main_arg0)) Facts₀.slices_S256x16384x8_S256x16384x1_0_0_0)
      Facts₀.shapeCasts_S256x16384x1_S256x16384 := by
  show StableHlo.after hostOps0 (fun b => m (c, b)) (Proc.devRef .tc main_v1) = _
  after_results
  rfl

/-- The target bits as the region finds them: each bit converted to the number 0 or 1. -/
theorem V_mask (c : Dev nD) :
    V m c main_v2 = (uitofp .f32 (m ((c : Thread nD τ).loc main_arg1)) : FVec F S256x16384 .f32) := by
  show StableHlo.after hostOps0 (fun b => m (c, b)) (Proc.devRef .tc main_v2) = _
  after_results

/-- Where the windows' blocks sit, decided over the grid's 16 points. -/
theorem index0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem index1 : ∀ t : Fin cfg0.N, win0_1.index t 0 = t.val / 8 ∧ win0_1.index t 1 = t.val % 8 :=
  (by decide +kernel : ∀ t : Fin grid0.N, win0_1.index t 0 = t.val / 8 ∧ win0_1.index t 1 = t.val % 8)
theorem index2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

/-- Entry (r, q) of the probabilities' block at point t. -/
theorem probs_block (c : Dev nD) (t : Fin cfg0.N) (ht : t.val < 16) (r : Fin 128) (q : Fin 2048) :
    (iblk m c 0 t : Vec F S128x2048 .f32) (ix2 r q)
      = V m c main_v1 (ix2 (⟨t.val / 8 * 128 + r.val, by omega⟩ : Fin 256) (⟨t.val % 8 * 2048 + q.val, by omega⟩ : Fin 16384)) := by
  unfold iblk
  rw [View.read_apply]
  show V m c main_v1 _ = V m c main_v1 _
  refine congrArg (V m c main_v1) ?_
  funext a
  apply Fin.ext
  match a with
  | ⟨0, _⟩ =>
    show win0_0.index t 0 * 128 + 1 * r.val = t.val / 8 * 128 + r.val
    rw [(index0 t).1]; omega
  | ⟨1, _⟩ =>
    show win0_0.index t 1 * 2048 + 1 * q.val = t.val % 8 * 2048 + q.val
    rw [(index0 t).2]; omega

/-- Entry (r, q) of the mask's block at point t. -/
theorem mask_block (c : Dev nD) (t : Fin cfg0.N) (ht : t.val < 16) (r : Fin 128) (q : Fin 2048) :
    (iblk m c 1 t : Vec F S128x2048 .f32) (ix2 r q)
      = V m c main_v2 (ix2 (⟨t.val / 8 * 128 + r.val, by omega⟩ : Fin 256) (⟨t.val % 8 * 2048 + q.val, by omega⟩ : Fin 16384)) := by
  unfold iblk
  rw [View.read_apply]
  show V m c main_v2 _ = V m c main_v2 _
  refine congrArg (V m c main_v2) ?_
  funext a
  apply Fin.ext
  match a with
  | ⟨0, _⟩ =>
    show win0_1.index t 0 * 128 + 1 * r.val = t.val / 8 * 128 + r.val
    rw [(index1 t).1]; omega
  | ⟨1, _⟩ =>
    show win0_1.index t 1 * 2048 + 1 * q.val = t.val % 8 * 2048 + q.val
    rw [(index1 t).2]; omega

end Cert.KernelIdeal.Blocks

end
-- ==== Proof.Accum.lean ====
/-
  The accumulator point by point, and the result array the region leaves.

  With T n the sum of the contributions of the tile handled at grid point n, the accumulator after point n holds
  acc T n: the tile sums of n's row partition from its first column stretch up to n (induction on the point: at a
  first stretch it is reset to zero and then holds 0 + T n; otherwise it holds what it held plus T n).  At the last
  stretch of partition p (points 7 and 15) the same value is copied to the output block, which the pipeline writes
  back to entry p of the [2, 1, 1] result; these two write-backs cover the result, so it ends holding, at entry p,
  acc T (8 p + 7): the total of partition p.
-/
import proofs.«128644_j13099650253073_2_alg».proof.Proof.Pieces
import proofs.«128644_j13099650253073_2_alg».proof.Proof.Payload
import proofs.«128644_j13099650253073_2_alg».proof.Proof.Tiles
import proofs.«128644_j13099650253073_2_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.Nll

variable (m : (ℓ : Loc nD τ sig) → Buf (Elt Ideal) ℓ)

/-- The tile sum added at grid point n, over the two arrays as the region finds them. -/
abbrev T (c : Dev nD) : ℕ → EReal :=
  tileSum (V m c main_v1 : S256x16384.Idx → EReal) (V m c main_v2 : S256x16384.Idx → EReal)

/-- The update at point t adds the point's tile sum to the accumulator. -/
theorem update_at (c : Dev nD) (t : Fin cfg0.N) (ht : t.val < 16) (xs : Vec Ideal S1x1x1 .f32) (a b d : Fin 1) :
    k0_pay2 (F := Ideal) (iblk m c 0 t) (iblk m c 1 t) xs (ix3 a b d) = xs (ix3 a b d) + T m c t.val := by
  refine (Payload.update_apply (iblk m c 0 t) (iblk m c 1 t) xs a b d).trans ?_
  refine congrArg (xs (ix3 a b d) + ·) ?_
  show _ = tileSum _ _ t.val
  unfold tileSum
  rw [dif_pos ht]
  refine Finset.sum_congr rfl fun r _ => Finset.sum_congr rfl fun q _ => ?_
  exact congrArg₂ kterm (Blocks.mask_block m c t ht r q) (Blocks.probs_block m c t ht r q)

/-- First stretch of a partition: the accumulator ends at the point's tile sum. -/
theorem first_at (c : Dev nD) (t : Fin cfg0.N) (ht : t.val < 16) (hc0 : cond0_0 (grid0.coords t)) (hc1 : ¬cond0_1 (grid0.coords t))
    (a b d : Fin 1) :
    sout0_A_0 c (grid0.coords t) (ms0_0 t) (hs0_0 t) (ms0_1 t) (hs0_1 t) (ms0_2 t) (hs0_2 t) scM0_0 (Memref.isWhole_whole _) hc0 hc1 (iblk m c 0 t) (iblk m c 1 t) (ix3 a b d) = T m c t.val := by
  refine (congrFun (Pieces.scratch_first (F := Ideal) c (grid0.coords t) (ms0_0 t) (hs0_0 t) (ms0_1 t) (hs0_1 t) (ms0_2 t) (hs0_2 t) scM0_0 (Memref.isWhole_whole _) hc0 hc1 (iblk m c 0 t) (iblk m c 1 t)) (ix3 a b d)).trans ?_
  refine (update_at m c t ht (k0_pay1 (F := Ideal)) a b d).trans ?_
  rw [Payload.reset_apply, zero_add]

/-- A middle stretch: what it held plus the point's tile sum. -/
theorem middle_at (c : Dev nD) (t : Fin cfg0.N) (ht : t.val < 16) (hc0 : ¬cond0_0 (grid0.coords t)) (hc1 : ¬cond0_1 (grid0.coords t))
    (xs : Vec Ideal S1x1x1 .f32) (a b d : Fin 1) :
    sout0_B_0 c (grid0.coords t) (ms0_0 t) (hs0_0 t) (ms0_1 t) (hs0_1 t) (ms0_2 t) (hs0_2 t) scM0_0 (Memref.isWhole_whole _) hc0 hc1 (iblk m c 0 t) (iblk m c 1 t) xs (ix3 a b d) = xs (ix3 a b d) + T m c t.val :=
  (congrFun (Pieces.scratch_middle (F := Ideal) c (grid0.coords t) (ms0_0 t) (hs0_0 t) (ms0_1 t) (hs0_1 t) (ms0_2 t) (hs0_2 t) scM0_0 (Memref.isWhole_whole _) hc0 hc1 (iblk m c 0 t) (iblk m c 1 t) xs) (ix3 a b d)).trans
    (update_at m c t ht xs a b d)

/-- The last stretch: the same in the accumulator, -/
theorem last_at (c : Dev nD) (t : Fin cfg0.N) (ht : t.val < 16) (hc0 : ¬cond0_0 (grid0.coords t)) (hc1 : cond0_1 (grid0.coords t))
    (xs : Vec Ideal S1x1x1 .f32) (a b d : Fin 1) :
    sout0_C_0 c (grid0.coords t) (ms0_0 t) (hs0_0 t) (ms0_1 t) (hs0_1 t) (ms0_2 t) (hs0_2 t) scM0_0 (Memref.isWhole_whole _) hc0 hc1 (iblk m c 0 t) (iblk m c 1 t) xs (ix3 a b d) = xs (ix3 a b d) + T m c t.val :=
  (congrFun (Pieces.scratch_last (F := Ideal) c (grid0.coords t) (ms0_0 t) (hs0_0 t) (ms0_1 t) (hs0_1 t) (ms0_2 t) (hs0_2 t) scM0_0 (Memref.isWhole_whole _) hc0 hc1 (iblk m c 0 t) (iblk m c 1 t) xs) (ix3 a b d)).trans
    (update_at m c t ht xs a b d)

/-- and in the output block. -/
theorem last_out_at (c : Dev nD) (t : Fin cfg0.N) (ht : t.val < 16) (hc0 : ¬cond0_0 (grid0.coords t)) (hc1 : cond0_1 (grid0.coords t))
    (xs : Vec Ideal S1x1x1 .f32) (a b d : Fin 1) :
    out0_C_2 c (grid0.coords t) (ms0_0 t) (hs0_0 t) (ms0_1 t) (hs0_1 t) (ms0_2 t) (hs0_2 t) scM0_0 (Memref.isWhole_whole _) hc0 hc1 (iblk m c 0 t) (iblk m c 1 t) xs (ix3 a b d) = xs (ix3 a b d) + T m c t.val :=
  (congrFun (Pieces.out_last (F := Ideal) c (grid0.coords t) (ms0_0 t) (hs0_0 t) (ms0_1 t) (hs0_1 t) (ms0_2 t) (hs0_2 t) scM0_0 (Memref.isWhole_whole _) hc0 hc1 (iblk m c 0 t) (iblk m c 1 t) xs) (ix3 a b d)).trans
    (update_at m c t ht xs a b d)

/-- The accumulator after point n holds the tile sums of n's partition up to n. -/
theorem scratch_at (c : Dev nD) : ∀ (n : ℕ) (hn : n < cfg0.N) (a b d : Fin 1),
    (outsAt0 m c n hn).2 (ix3 a b d) = acc (T m c) n := by
  intro n
  induction n using Nat.strong_induction_on with
  | _ n ih =>
    intro hn a b d
    have hN : n < 16 := lt_of_lt_of_eq hn (show cfg0.N = 16 from N_0)
    by_cases h0 : n % 8 = 0
    · have h1 : ¬ n % 8 = 7 := by omega
      rw [outsAt0_A m c ⟨n, hn⟩ h0 h1]
      dsimp only
      exact (first_at m c ⟨n, hn⟩ hN _ _ a b d).trans (acc_first _ _ h0).symm
    · have hpos : n - 1 < n := by omega
      by_cases h1 : n % 8 = 7
      · rw [outsAt0_C m c ⟨n, hn⟩ h0 h1]
        dsimp only
        refine (last_at m c ⟨n, hn⟩ hN _ _ _ a b d).trans ?_
        rw [ih (n - 1) hpos _ a b d]
        exact (acc_step _ _ h0).symm
      · rw [outsAt0_B m c ⟨n, hn⟩ h0 h1]
        dsimp only
        refine (middle_at m c ⟨n, hn⟩ hN _ _ _ a b d).trans ?_
        rw [ih (n - 1) hpos _ a b d]
        exact (acc_step _ _ h0).symm

/-- At the last stretch of a partition the output block holds the partition's total so far, which is all of it. -/
theorem out_at (c : Dev nD) (t : Fin cfg0.N) (h7 : t.val % 8 = 7) (j : S1x1x1.Idx) :
    (outsAt0 m c t.val t.isLt).1 j = acc (T m c) t.val := by
  obtain ⟨a, b, d, rfl⟩ : ∃ (a b d : Fin 1), j = ix3 a b d := ⟨j 0, j 1, j 2, eq_ix3 j⟩
  have hN : t.val < 16 := lt_of_lt_of_eq t.isLt (show cfg0.N = 16 from N_0)
  have h0 : ¬ t.val % 8 = 0 := by omega
  have hpos : t.val - 1 < cfg0.N := Nat.lt_of_le_of_lt (Nat.sub_le _ _) t.isLt
  rw [outsAt0_C m c t h0 h7]
  dsimp only
  refine (last_out_at m c t hN _ _ _ a b d).trans ?_
  rw [scratch_at m c (t.val - 1) hpos a b d]
  exact (acc_step _ _ h0).symm

/-- The result array after the region: entry p holds the total of partition p. -/
abbrev result (c : Dev nD) : S2x1x1.Idx → EReal :=
  fun i => acc (T m c) (8 * (i 0).val + 7)

/-- What a write-back writes (points 7 and 15) is its block of that array. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  show (cfg0.win 2).cut (grid0.coords t) ((dats m 0 c).after 2 t) = _
  rw [after0_2]
  funext j
  refine (out_at m c t h7 j).trans ?_
  show acc (T m c) t.val = acc (T m c) (8 * ((((cfg0.win 2).blk t).view.emb j) 0).val + 7)
  refine congrArg (acc (T m c)) ?_
  have e : ((((cfg0.win 2).blk t).view.emb j) 0).val = win0_2.index t 0 * 1 + 1 * (j 0).val := rfl
  have hj : (j 0).val < 1 := (j 0).isLt
  rw [e, (Blocks.index2 t).1]
  omega

/-- An entry of the result lies in point t's block iff each coordinate is in the block's range. -/
theorem mem_blk (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v3).slice (win0_2.rect t)).set ↔ _
  rw [View.set_slice_whole, Rect.mem_set_unit]
  exact Iff.rfl

/-- Entry p of the result is written back at point 8 p + 7. -/
theorem cover (i : S2x1x1.Idx) : ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1 := (i 2).isLt
  have hN : cfg0.N = 16 := N_0
  obtain ⟨t, ht⟩ : ∃ t : Fin cfg0.N, t.val = 8 * (i 0).val + 7 := ⟨⟨8 * (i 0).val + 7, by rw [hN]; omega⟩, rfl⟩
  refine ⟨t, (flush0_2 t).mpr (by omega), ?_⟩
  rw [mem_blk]
  obtain ⟨e0, e1, e2⟩ := Blocks.index2 t
  intro a
  match a with
  | ⟨0, _⟩ =>
    show win0_2.index t 0 * 1 ≤ (i 0).val ∧ (i 0).val < win0_2.index t 0 * 1 + 1
    rw [e0]; omega
  | ⟨1, _⟩ =>
    show win0_2.index t 1 * 1 ≤ (i 1).val ∧ (i 1).val < win0_2.index t 1 * 1 + 1
    rw [e1]; omega
  | ⟨2, _⟩ =>
    show win0_2.index t 2 * 1 ≤ (i 2).val ∧ (i 2).val < win0_2.index t 2 * 1 + 1
    rw [e2]; omega

/-- So the result array ends holding the two partitions' totals. -/
theorem final (c : Dev nD) : (dats m 0 c).arrAt 2 cfg0.N = result m c :=
  (dats m 0 c).arrAt_eq_of_cover 2 (result m c) (flushed_eq m c) (fun i => cover i)

end Cert.KernelIdeal.Accum

end
-- ==== Proof.KernelRun.lean ====
/-
  The tiled program's run, read: its result.

  After the region the host adds the two entries of the [2, 1, 1] array of partition totals to zero, negates the sum
  and divides it by 256.  The region leaves that array at the partitions' totals, so every execution ends with the
  result at  tail  of them, the two arguments unchanged.
-/
import proofs.«128644_j13099650253073_2_alg».proof.Proof.Accum
import Idealize.ShloMosaic.Lib.StableHlo.Run
import Idealize.ShloMosaic.Lib.Pipeline.FrameSuffix

noncomputable section

open Idealize.ShloMosaic Idealize.ShloMosaic.TcCoe Idealize.SL.Sem Idealize.ShloMosaic.ValueIdx

namespace Cert.KernelIdeal.Whole

open Cert.KernelIdeal Cert.KernelIdeal.Gen

variable (m : (ℓ : Loc nD τ sig) → Buf (Elt Ideal) ℓ) (ρ : Dev nD → PrngReg)

/-- The host lines after the region as one function of the array of partition totals: minus (zero plus the sum of
    its entries), divided by 256. -/
def tail (x : S2x1x1.Idx → EReal) : S_.Idx → EReal :=
  Host.divf (F := Ideal)
    (Host.negf (F := Ideal)
      (Host.reduceAdd (F := Ideal) x (constant (F := Ideal) S_ .f32 0x00000000#32) Facts₀.reducesTo_S2x1x1_S_d0_1_2 Facts₀.h_S_))
    (constant (F := Ideal) S_ .f32 0x43800000#32)

/-- What the lines after the region leave in the result buffer: the tail of the partition totals. -/
theorem tail_eq (c : Dev nD) :
    Pipeline.afterTail₀ cfgs (dats m) 0 (V0 m) [hostOps1] c main_v6 = tail (Accum.result m c) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v3)
      = Accum.result m c :=
    (Pipeline.withArrays_arr spec0 launch0.win.arr_inj c (V0 m c) (fun w => (dats m 0 c).arrAt w cfg0.N) 2).trans (Accum.final m c)
  rw [e]
  rfl

/-- Every execution terminates with the result at the tail of the partition totals and the arguments unchanged. -/
theorem run : θ_run defs (onTc (τ := τ) (main (F := Ideal))) ⟨m, fun _ => 0, ρ⟩ fun r => ∀ c : Dev nD,
      r.2.mem ((c : Thread nD τ).loc main_v6) = tail (Accum.result m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Whole

end
-- ==== Proof.LibUnitAxesSum.lean ====
/-
  A sum over the index set of an [n, 1, 1] array is the sum over its first coordinate: the two unit axes have one
  coordinate each.  Over any commutative additive monoid, generic in n.
-/
import Idealize.ShloMosaic.Lib.ValueIdx

noncomputable section

namespace LibUnitAxesSum

open Idealize.ShloMosaic Idealize.ShloMosaic.ValueIdx

/-- The index set of an [n, 1, 1] array is its first coordinate's range. -/
def idxEquiv {n : ℕ} : (⟨3, ![n, 1, 1]⟩ : Shape).Idx ≃ Fin n where
  toFun i := i 0
  invFun p := ix3 p (0 : Fin 1) (0 : Fin 1)
  left_inv i := by
    funext a
    apply Fin.ext
    match a with
    | ⟨0, _⟩ => rfl
    | ⟨1, _⟩ =>
      have h : (i 1).val < 1 := (i 1).isLt
      show (0 : ℕ) = (i 1).val
      omega
    | ⟨2, _⟩ =>
      have h : (i 2).val < 1 := (i 2).isLt
      show (0 : ℕ) = (i 2).val
      omega
  right_inv _ := rfl

/-- So a sum over it is the sum over the first coordinate. -/
theorem sum_idx {M : Type*} [AddCommMonoid M] {n : ℕ} (f : (⟨3, ![n, 1, 1]⟩ : Shape).Idx → M) :
    ∑ i, f i = ∑ p : Fin n, f (ix3 p (0 : Fin 1) (0 : Fin 1)) := by
  rw [← Equiv.sum_comp (idxEquiv (n := n)).symm f]
  rfl

end LibUnitAxesSum

end
-- ==== Proof.Bridge.lean ====
/-
  The two programs compute one number.

  The plain program selects, at every entry, log p or log1p (-p) by the entry's target bit, adds all 256 x 16384
  selected values to zero, negates and divides by 256.  The tiled program's array of partition totals sums to the
  same total: each partition's total is the sum of its 8 tile sums, the tiles' contributions regroup to the sum over
  all entries (addition of extended reals is commutative and associative), and a contribution computed from the
  target bit converted to 0 or 1, tested against one half, with log1p of 0 - p, is the plain program's selected
  value.  Both programs then apply the same negation and the same division by 256.
-/
import proofs.«128644_j13099650253073_2_alg».proof.Proof.KernelRun
import proofs.«128644_j13099650253073_2_alg».proof.Proof.LibUnitAxesSum
import proofs.«128644_j13099650253073_2_alg».proof.Proof.Gen.ReferenceIdeal.Read

noncomputable section

open Idealize.ShloMosaic Idealize.ShloMosaic.TcCoe Idealize.SL.Sem Idealize.ShloMosaic.ValueIdx

namespace Cert.Bridge

open Cert.KernelIdeal Cert.KernelIdeal.Gen Cert.Nll

/-- The plain program's selected value at an entry is the contribution of the entry's target bit and probability. -/
theorem ref_summand (x0 : (⟨Cert.ReferenceIdeal.S256x16384x8, .f32⟩ : BufTy).Contents (Elt Ideal))
    (x1 : (⟨Cert.ReferenceIdeal.S256x16384, .i1⟩ : BufTy).Contents (Elt Ideal)) (j : Cert.ReferenceIdeal.S256x16384.Idx) :
    Cert.ReferenceIdeal.Read.val_main_v5 (F := Ideal) x0 x1 j
      = term (x1 j) (Cert.ReferenceIdeal.Read.val_main_v1 (F := Ideal) x0 j) := rfl

variable (m : (ℓ : Loc nD τ sig) → Buf (Elt Ideal) ℓ)

/-- The probabilities the tiled program's region finds are the plain program's probabilities of the same argument. -/
theorem probs_eq (c : Dev nD) :
    (V m c main_v1 : S256x16384.Idx → EReal)
      = Cert.ReferenceIdeal.Read.val_main_v1 (F := Ideal) (m ((c : Thread nD τ).loc main_arg0)) :=
  (Blocks.V_probs m c).trans rfl

/-- The mask the region finds is, at an entry, the entry's target bit as the number 0 or 1. -/
theorem mask_apply (c : Dev nD) (j : S256x16384.Idx) :
    (V m c main_v2 : S256x16384.Idx → EReal) j = ((((m ((c : Thread nD τ).loc main_arg1)) j).toNat : ℝ) : EReal) := by
  rw [Blocks.V_mask]
  rfl

/-- The partition totals add up to the sum of the plain program's selected values. -/
theorem sums_agree (c : Dev nD) :
    ∑ i : S2x1x1.Idx, Accum.result m c i
      = ∑ j : Cert.ReferenceIdeal.S256x16384.Idx,
          Cert.ReferenceIdeal.Read.val_main_v5 (F := Ideal) (m ((c : Thread nD τ).loc main_arg0)) (m ((c : Thread nD τ).loc main_arg1)) j := by
  rw [LibUnitAxesSum.sum_idx]
  show ∑ p : Fin 2, acc (Accum.T m c) (8 * p.val + 7) = _
  rw [sum_partitions]
  refine Finset.sum_congr rfl fun j _ => ?_
  rw [ref_summand, ← probs_eq m c, mask_apply m c j, kterm_bit]

/-- The host's sum of every entry of the [2, 1, 1] array from zero: zero plus the sum of its entries. -/
theorem kernel_total (x : S2x1x1.Idx → EReal) (i : S_.Idx) :
    Host.reduceAdd (F := Ideal) x (constant (F := Ideal) S_ .f32 0x00000000#32) Facts₀.reducesTo_S2x1x1_S_d0_1_2 Facts₀.h_S_ i
      = Ideal.ofBits .f32 0x00000000#32 + ∑ j : S2x1x1.Idx, x j := by
  simp only [Host.reduceAdd, Ideal.hostReduceAdd_def]
  exact Ideal.hostReduceAdd_total Facts₀.reducesTo_S2x1x1_S_d0_1_2 (fun b => b.elim0) x _ i

/-- The two sums from zero agree. -/
theorem reduce_agree (c : Dev nD) :
    Host.reduceAdd (F := Ideal) (Accum.result m c) (constant (F := Ideal) S_ .f32 0x00000000#32) Facts₀.reducesTo_S2x1x1_S_d0_1_2 Facts₀.h_S_
      = Cert.ReferenceIdeal.Read.val_main_v6 (F := Ideal) (m ((c : Thread nD τ).loc main_arg0)) (m ((c : Thread nD τ).loc main_arg1)) := by
  funext i
  rw [Cert.ReferenceIdeal.Read.val_main_v6_apply]
  refine (kernel_total (Accum.result m c) i).trans ?_
  exact congrArg (Ideal.ofBits .f32 0x00000000#32 + ·) (sums_agree m c)

/-- The plain program's result term, of the tiled program's arguments, is the tiled program's result. -/
theorem value_eq (c : Dev nD) :
    Cert.ReferenceIdeal.Read.val_main_v8 (F := Ideal) (m ((c : Thread nD τ).loc main_arg0)) (m ((c : Thread nD τ).loc main_arg1))
      = Whole.tail (Accum.result m c) := by
  unfold Whole.tail
  rw [reduce_agree m c]
  rfl

end Cert.Bridge

end
-- ==== Proof.lean ====
/-
  A masked log-likelihood, summed two ways.

  For probabilities p(b, g) (channel 0 of a [256, 16384, 8] array) and target bits t(b, g), both programs compute

      - ( sum over b < 256, g < 16384 of ( log p(b, g) if t(b, g) else log1p (-p(b, g)) ) ) / 256.

  The plain program selects by the bit and adds all the selected values to zero in one host sum.  The tiled program
  converts the bits to the numbers 0 and 1, cuts the rows into 2 partitions of 128 and the columns into 8 stretches of
  2048, and at each of the 16 grid points adds the sum of one 128 x 2048 tile (selecting by "bit > 1/2", with log1p of
  0 - p) into an accumulator that it resets at a partition's first stretch and copies out at its last; the host then
  adds the two partition totals to zero.  Read over the extended reals the two results are equal for all inputs:
  0 - p = -p, a bit read as a number exceeds one half exactly when it is set, and a sum may be regrouped at will.
  The negation and the division by 256 are the same operations on both sides and are never opened.

  The tiled program's frames are the generated ones; the plain program's frame is its generated run with the result
  dropped; the idealization rewrote nothing.
-/
import proofs.«128644_j13099650253073_2_alg».proof.Defs
import proofs.«128644_j13099650253073_2_alg».proof.Proof.Gen.Kernel
import proofs.«128644_j13099650253073_2_alg».proof.Proof.Gen.Kernel.Skeleton
import proofs.«128644_j13099650253073_2_alg».proof.Proof.Gen.Kernel.Launch
import proofs.«128644_j13099650253073_2_alg».proof.Proof.Gen.Kernel.Points
import proofs.«128644_j13099650253073_2_alg».proof.Proof.Gen.Kernel.Frame
import proofs.«128644_j13099650253073_2_alg».proof.Proof.Gen.KernelIdeal
import proofs.«128644_j13099650253073_2_alg».proof.Proof.Gen.KernelIdeal.Skeleton
import proofs.«128644_j13099650253073_2_alg».proof.Proof.Gen.KernelIdeal.Launch
import proofs.«128644_j13099650253073_2_alg».proof.Proof.Gen.KernelIdeal.Points
import proofs.«128644_j13099650253073_2_alg».proof.Proof.Gen.KernelIdeal.Frame
import proofs.«128644_j13099650253073_2_alg».proof.Proof.Gen.ReferenceIdeal
import proofs.«128644_j13099650253073_2_alg».proof.Proof.Gen.Pre_finite_inputs
import proofs.«128644_j13099650253073_2_alg».proof.Proof.Gen.ReferenceIdeal.Run
import proofs.«128644_j13099650253073_2_alg».proof.Proof.Gen.ReferenceIdeal.Read
import proofs.«128644_j13099650253073_2_alg».proof.Proof.Bridge
import Idealize.ShloMosaic.Adequacy
import Idealize.ShloMosaic.Init

noncomputable section

namespace Cert.Proof

open Idealize.ShloMosaic Idealize.SL.Sem

/-- The tiled program as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The plain program runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments both programs end with the same extended real: the tiled program
    at minus the sum of its partition totals over 256, the plain program at minus its one sum over 256, and the two
    sums are equal. -/
theorem algebraic : Cert.algebraic_KernelIdeal_ReferenceIdeal := by
  intro m ρ m' ρ' _ hagree
  refine ⟨fun c => Cert.KernelIdeal.Whole.tail (Cert.KernelIdeal.Accum.result m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v8_eq _ _).trans (Cert.Bridge.value_eq m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
